-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x256 : Shape := ⟨3, ![128, 1024, 256]⟩
abbrev S128x1024x64 : Shape := ⟨3, ![128, 1024, 64]⟩
abbrev S128 : Shape := ⟨1, ![128]⟩
abbrev S1024x16384 : Shape := ⟨2, ![1024, 16384]⟩
abbrev S1024 : Shape := ⟨1, ![1024]⟩
abbrev S_ : Shape := ⟨0, ![]⟩

class Facts : Prop where
  bcast_S_S128x1024x256 : S_.BroadcastsInDim S128x1024x256 (![] : Fin 0 → Fin S128x1024x256.rank)
  reducesTo_S128x1024x256_S_d0_1_2 : S128x1024x256.ReducesTo [0, 1, 2] S_
  h_S_ : 0 < S_.numel
  bcast_S_S128x1024x64 : S_.BroadcastsInDim S128x1024x64 (![] : Fin 0 → Fin S128x1024x64.rank)
  reducesTo_S128x1024x64_S_d0_1_2 : S128x1024x64.ReducesTo [0, 1, 2] S_
  bcast_S_S1024x16384 : S_.BroadcastsInDim S1024x16384 (![] : Fin 0 → Fin S1024x16384.rank)
  reducesTo_S1024x16384_S_d0_1 : S1024x16384.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S128x1024x256 .f32) (main_arg1 : FVec F S128x1024x64 .f32) (main_arg2 : IVec S128 32) (main_arg3 : FVec F S1024x16384 .f32) (main_arg4 : FVec F S1024 .f32) : IVec S_ 1 :=
  let main_v0 : FVec F S128x1024x256 .f32 := Host.absf main_arg0
  let main_cst : FVec F S_ .f32 := constant S_ .f32 0x7F800000#32
  let main_v1 : FVec F S128x1024x256 .f32 := broadcastInDim S128x1024x256 ![] bcast_S_S128x1024x256 main_cst
  let main_v2 : IVec S128x1024x256 1 := cmpf .olt main_v0 main_v1
  let main_c : IVec S_ 1 := constantI S_ 1 1#1
  let main_v3 : IVec S_ 1 := (fun x v => Host.reduce IntOp.andi x v reducesTo_S128x1024x256_S_d0_1_2 h_S_) main_v2 main_c
  let main_v4 : FVec F S128x1024x64 .f32 := Host.absf main_arg1
  let main_cst_0 : FVec F S_ .f32 := constant S_ .f32 0x7F800000#32
  let main_v5 : FVec F S128x1024x64 .f32 := broadcastInDim S128x1024x64 ![] bcast_S_S128x1024x64 main_cst_0
  let main_v6 : IVec S128x1024x64 1 := cmpf .olt main_v4 main_v5
  let main_c_1 : IVec S_ 1 := constantI S_ 1 1#1
  let main_v7 : IVec S_ 1 := (fun x v => Host.reduce IntOp.andi x v reducesTo_S128x1024x64_S_d0_1_2 h_S_) main_v6 main_c_1
  let main_v8 : IVec S_ 1 := andi main_v3 main_v7
  let main_v9 : FVec F S1024x16384 .f32 := Host.absf main_arg3
  let main_cst_2 : FVec F S_ .f32 := constant S_ .f32 0x7F800000#32
  let main_v10 : FVec F S1024x16384 .f32 := broadcastInDim S1024x16384 ![] bcast_S_S1024x16384 main_cst_2
  let main_v11 : IVec S1024x16384 1 := cmpf .olt main_v9 main_v10
  let main_c_3 : IVec S_ 1 := constantI S_ 1 1#1
  let main_v12 : IVec S_ 1 := (fun x v => Host.reduce IntOp.andi x v reducesTo_S1024x16384_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S128x1024x256 : Shape := ⟨3, ![128, 1024, 256]⟩
abbrev S128x1024x64 : Shape := ⟨3, ![128, 1024, 64]⟩
abbrev S128 : Shape := ⟨1, ![128]⟩
abbrev S1024x16384 : Shape := ⟨2, ![1024, 16384]⟩
abbrev S1024 : Shape := ⟨1, ![1024]⟩
abbrev S128x1 : Shape := ⟨2, ![128, 1]⟩
abbrev S128x256x64 : Shape := ⟨3, ![128, 256, 64]⟩
abbrev S16x1024x256 : Shape := ⟨3, ![16, 1024, 256]⟩
abbrev S16x1024x64 : Shape := ⟨3, ![16, 1024, 64]⟩
abbrev S16x1 : Shape := ⟨2, ![16, 1]⟩
abbrev S16x256x64 : Shape := ⟨3, ![16, 256, 64]⟩
abbrev S16x1024 : Shape := ⟨2, ![16, 1024]⟩
abbrev S16x1024x1 : Shape := ⟨3, ![16, 1024, 1]⟩
abbrev S128x16384 : Shape := ⟨2, ![128, 16384]⟩
abbrev S1x1024 : Shape := ⟨2, ![1, 1024]⟩
abbrev S128x1024 : Shape := ⟨2, ![128, 1024]⟩
abbrev S256x16384 : Shape := ⟨2, ![256, 16384]⟩
abbrev S1x256 : Shape := ⟨2, ![1, 256]⟩
abbrev S128x256 : Shape := ⟨2, ![128, 256]⟩

abbrev nBuf : Space → Nat
  | .hbm => 10
  | .vmem => 15
  | .smem => 0
  | _ => 0

abbrev bufTy : (tb : Table) → Fin (tcTables nBuf tb) → BufTy
  | .hbm, ⟨0, _⟩ => ⟨S128x1024x256, .f32⟩
  | .hbm, ⟨1, _⟩ => ⟨S128x1024x64, .f32⟩
  | .hbm, ⟨2, _⟩ => ⟨S128, .i32⟩
  | .hbm, ⟨3, _⟩ => ⟨S1024x16384, .f32⟩
  | .hbm, ⟨4, _⟩ => ⟨S1024, .f32⟩
  | .hbm, ⟨5, _⟩ => ⟨S128x1, .i32⟩
  | .hbm, ⟨6, _⟩ => ⟨S128x256x64, .f32⟩
  | .hbm, ⟨7, _⟩ => ⟨S128x16384, .f32⟩
  | .hbm, ⟨8, _⟩ => ⟨S1x1024, .f32⟩
  | .hbm, ⟨9, _⟩ => ⟨S128x1024, .f32⟩
  | .local _ .vmem, ⟨0, _⟩ => ⟨S16x1024x256, .f32⟩
  | .local _ .vmem, ⟨1, _⟩ => ⟨S16x1024x256, .f32⟩
  | .local _ .vmem, ⟨2, _⟩ => ⟨S16x1024x64, .f32⟩
  | .local _ .vmem, ⟨3, _⟩ => ⟨S16x1024x64, .f32⟩
  | .local _ .vmem, ⟨4, _⟩ => ⟨S16x1, .i32⟩
  | .local _ .vmem, ⟨5, _⟩ => ⟨S16x1, .i32⟩
  | .local _ .vmem, ⟨6, _⟩ => ⟨S16x256x64, .f32⟩
  | .local _ .vmem, ⟨7, _⟩ => ⟨S16x256x64, .f32⟩
  | .local _ .vmem, ⟨8, _⟩ => ⟨S128x16384, .f32⟩
  | .local _ .vmem, ⟨9, _⟩ => ⟨S256x16384, .f32⟩
  | .local _ .vmem, ⟨10, _⟩ => ⟨S256x16384, .f32⟩
  | .local _ .vmem, ⟨11, _⟩ => ⟨S1x256, .f32⟩
  | .local _ .vmem, ⟨12, _⟩ => ⟨S1x256, .f32⟩
  | .local _ .vmem, ⟨13, _⟩ => ⟨S128x256, .f32⟩
  | .local _ .vmem, ⟨14, _⟩ => ⟨S128x256, .f32⟩
  | _, _ => ⟨S128x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x16384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S128x1 : S128.ShapeCasts S128x1
  iota_S16x1024_d1_w32 : S16x1024.Iotas .tc 32 [1]
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x1024 : S16x1.Broadcasts S16x1024
  natLt_1_32 : 1 < 32
  inb_S16x1024x256_S16x1024x256_0_0_0 : ∀ a, (![0, 0, 0] : Fin 3 → Nat) a + S16x1024x256.size a ≤ S16x1024x256.size a
  h_S16x1024x256 : 0 < S16x1024x256.numel
  bitsLt_bf16_f32 : FTy.bits .bf16 < FTy.bits .f32
  inb_S16x1024x64_S16x1024x64_0_0_0 : ∀ a, (![0, 0, 0] : Fin 3 → Nat) a + S16x1024x64.size a ≤ S16x1024x64.size a
  h_S16x1024x64 : 0 < S16x1024x64.numel
  shapeCasts_S16x1024_S16x1024x1 : S16x1024.ShapeCasts S16x1024x1
  broadcasts_S16x1024x1_S16x1024x64 : S16x1024x1.Broadcasts S16x1024x64
  inb_S16x256x64_S16x256x64_0_0_0 : ∀ a, (![0, 0, 0] : Fin 3 → Nat) a + S16x256x64.size a ≤ S16x256x64.size a
  h_S16x256x64 : 0 < S16x256x64.numel
  shapeCasts_S128x256x64_S128x16384 : S128x256x64.ShapeCasts S128x16384
  shapeCasts_S1024_S1x1024 : S1024.ShapeCasts S1x1024
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  inb_S256x16384_S256x16384_0_0 : ∀ a, (![0, 0] : Fin 2 → Nat) a + S256x16384.size a ≤ S256x16384.size a
  h_S256x16384 : 0 < S256x16384.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  dot_S16x1024x256_S16x1024x64_S16x256x64_1_1_2_2_0_0_wf : DotDims.WF S16x1024x256 S16x1024x64 S16x256x64 [1] [1] [2] [2] [0] [0]
  dot_S128x16384_S256x16384_S128x256_1_1_0_0_n_n_wf : DotDims.WF S128x16384 S256x16384 S128x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x256.size a ≤ S128x1024x256.size a
  hwx0_0 : ∀ i : grid0.Coords, EltTy.bits .f32 = 32 ∨ (Rect.block (s := S128x1024x256) S16x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024x64.size a ≤ S128x1024x64.size a
  hwx0_1 : ∀ i : grid0.Coords, EltTy.bits .f32 = 32 ∨ (Rect.block (s := S128x1024x64) S16x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S128x1.size a
  hwx0_2 : ∀ i : grid0.Coords, EltTy.bits .i32 = 32 ∨ (Rect.block (s := S128x1) S16x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x64.size a ≤ S128x256x64.size a
  hwx0_3 : ∀ i : grid0.Coords, EltTy.bits .f32 = 32 ∨ (Rect.block (s := S128x256x64) S16x256x64.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S128x16384.size a
  hwx1_0 : ∀ i : grid1.Coords, EltTy.bits .f32 = 32 ∨ (Rect.block (s := S128x16384) S128x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x16384.size a ≤ S1024x16384.size a
  hwx1_1 : ∀ i : grid1.Coords, EltTy.bits .f32 = 32 ∨ (Rect.block (s := S1024x16384) S256x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x1024.size a
  hwx1_2 : ∀ i : grid1.Coords, EltTy.bits .f32 = 32 ∨ (Rect.block (s := S1x1024) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x1024.size a
  hwx1_3 : ∀ i : grid1.Coords, EltTy.bits .f32 = 32 ∨ (Rect.block (s := S128x1024) S128x256.size (cc1_transform_3 i) (hinb1_3 i)).WholeWords (EltTy.packing .f32)

variable [Facts₀]

def dot_S16x1024x256_S16x1024x64_S16x256x64_1_1_2_2_0_0 : DotDims S16x1024x256 S16x1024x64 S16x256x64 where
  lhsContracting := [1]
  rhsContracting := [1]
  lhsNonContracting := [2]
  rhsNonContracting := [2]
  lhsBatch := [0]
  rhsBatch := [0]
  wf := dot_S16x1024x256_S16x1024x64_S16x256x64_1_1_2_2_0_0_wf
def dot_S128x16384_S256x16384_S128x256_1_1_0_0_n_n : DotDims S128x16384 S256x16384 S128x256 where
  lhsContracting := [1]
  rhsContracting := [1]
  lhsNonContracting := [0]
  rhsNonContracting := [0]
  lhsBatch := []
  rhsBatch := []
  wf := dot_S128x16384_S256x16384_S128x256_1_1_0_0_n_n_wf

abbrev win0_0 : Pipeline.Window sig grid0 :=
  Pipeline.Window.ofSpec (Memref.whole main_arg0) S16x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S128x16384.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S128x1024x256 : Shape := ⟨3, ![128, 1024, 256]⟩
abbrev S128x1024x64 : Shape := ⟨3, ![128, 1024, 64]⟩
abbrev S128 : Shape := ⟨1, ![128]⟩
abbrev S1024x16384 : Shape := ⟨2, ![1024, 16384]⟩
abbrev S1024 : Shape := ⟨1, ![1024]⟩
abbrev S1x1024 : Shape := ⟨2, ![1, 1024]⟩
abbrev S128x1 : Shape := ⟨2, ![128, 1]⟩
abbrev S128x1024 : Shape := ⟨2, ![128, 1024]⟩
abbrev S128x1024x1 : Shape := ⟨3, ![128, 1024, 1]⟩
abbrev S128x256x64 : Shape := ⟨3, ![128, 256, 64]⟩
abbrev S128x16384 : Shape := ⟨2, ![128, 16384]⟩
abbrev S16384x1024 : Shape := ⟨2, ![16384, 1024]⟩

abbrev nBuf : Space → Nat
  | .hbm => 22
  | .vmem => 0
  | .smem => 0
  | _ => 0

abbrev bufTy : (tb : Table) → Fin (tcTables nBuf tb) → BufTy
  | .hbm, ⟨0, _⟩ => ⟨S128x1024x256, .f32⟩
  | .hbm, ⟨1, _⟩ => ⟨S128x1024x64, .f32⟩
  | .hbm, ⟨2, _⟩ => ⟨S128, .i32⟩
  | .hbm, ⟨3, _⟩ => ⟨S1024x16384, .f32⟩
  | .hbm, ⟨4, _⟩ => ⟨S1024, .f32⟩
  | .hbm, ⟨5, _⟩ => ⟨S1024, .i32⟩
  | .hbm, ⟨6, _⟩ => ⟨S1x1024, .i32⟩
  | .hbm, ⟨7, _⟩ => ⟨S128x1, .i32⟩
  | .hbm, ⟨8, _⟩ => ⟨S128x1024, .i32⟩
  | .hbm, ⟨9, _⟩ => ⟨S128x1024, .i32⟩
  | .hbm, ⟨10, _⟩ => ⟨S128x1024, .i1⟩
  | .hbm, ⟨11, _⟩ => ⟨S128x1024, .f32⟩
  | .hbm, ⟨12, _⟩ => ⟨S128x1024x1, .f32⟩
  | .hbm, ⟨13, _⟩ => ⟨S128x1024x256, .f32⟩
  | .hbm, ⟨14, _⟩ => ⟨S128x1024x256, .f32⟩
  | .hbm, ⟨15, _⟩ => ⟨S128x256x64, .f32⟩
  | .hbm, ⟨16, _⟩ => ⟨S128x16384, .f32⟩
  | .hbm, ⟨17, _⟩ => ⟨S16384x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | _, _ => ⟨S128x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S128_S128x1_0 : S128.BroadcastsInDim S128x1 (![0] : Fin 1 → Fin S128x1.rank)
  bcast_S1x1024_S128x1024_0_1 : S1x1024.BroadcastsInDim S128x1024 (![0, 1] : Fin 2 → Fin S128x1024.rank)
  bcast_S128x1_S128x1024_0_1 : S128x1.BroadcastsInDim S128x1024 (![0, 1] : Fin 2 → Fin S128x1024.rank)
  bcast_S128x1024_S128x1024x1_0_1 : S128x1024.BroadcastsInDim S128x1024x1 (![0, 1] : Fin 2 → Fin S128x1024x1.rank)
  bcast_S128x1024x1_S128x1024x256_0_1_2 : S128x1024x1.BroadcastsInDim S128x1024x256 (![0, 1, 2] : Fin 3 → Fin S128x1024x256.rank)
  shapeCasts_S128x256x64_S128x16384 : S128x256x64.ShapeCasts S128x16384
  transposes_S1024x16384_S16384x1024_1_0 : S1024x16384.Transposes [1, 0] S16384x1024
  dot_S128x1024x256_S128x1024x64_S128x256x64_1_1_2_2_0_0_wf : DotDims.WF S128x1024x256 S128x1024x64 S128x256x64 [1] [1] [2] [2] [0] [0]
  dot_S128x16384_S16384x1024_S128x1024_1_0_0_1_n_n_wf : DotDims.WF S128x16384 S16384x1024 S128x1024 [1] [0] [0] [1] [] []

variable [Facts₀]

def dot_S128x1024x256_S128x1024x64_S128x256x64_1_1_2_2_0_0 : DotDims S128x1024x256 S128x1024x64 S128x256x64 where
  lhsContracting := [1]
  rhsContracting := [1]
  lhsNonContracting := [2]
  rhsNonContracting := [2]
  lhsBatch := [0]
  rhsBatch := [0]
  wf := dot_S128x1024x256_S128x1024x64_S128x256x64_1_1_2_2_0_0_wf
def dot_S128x16384_S16384x1024_S128x1024_1_0_0_1_n_n : DotDims S128x16384 S16384x1024 S128x1024 where
  lhsContracting := [1]
  rhsContracting := [0]
  lhsNonContracting := [0]
  rhsNonContracting := [1]
  lhsBatch := []
  rhsBatch := []
  wf := dot_S128x16384_S16384x1024_S128x1024_1_0_0_1_n_n_wf

class Facts : Prop extends Facts₀ where

variable [Facts]
-- ==== Proof.Spec.lean ====
/-
  The function both programs compute, on the extended reals, entry by entry.

  Each batch row `b` holds a sequence of 1024 positions; position `s` carries a filler vector `f (b, s, ·)` of
  256 entries and a role vector `r (b, s, ·)` of 64 entries, and only the positions before the row's length are
  kept. The bound tensor of row `b` is the sum over the kept positions of the outer product filler ⊗ role, a
  256 × 64 matrix; flattened to one vector of 16384 entries it goes through a linear layer: against every row of
  the weight matrix `W : [1024, 16384]`, plus the bias.
-/
import Idealize.ShloMosaic.Lib.ValueIdx
import Idealize.ShloMosaic.PureOps.Ideal.Laws

noncomputable section

namespace Cert.Bind

open Idealize.ShloMosaic Idealize.ShloMosaic.ValueIdx
open scoped BigOperators

/-- Position `s` is kept in a row of length `len`: the signed comparison `s < len`, as one bit. -/
def keepBit (len : BitVec 32) (s : Fin 1024) : BitVec 1 := IntOp.cmpi .slt (BitVec.ofNat 32 s.val) len

/-- The same as an extended real, `1` for a kept position and `0` otherwise: the bit read as an unsigned integer. -/
def keep (len : BitVec 32) (s : Fin 1024) : EReal := FloatOps.uitofp (F := Ideal) .f32 (keepBit len s)

/-- Widening the bit to 32 bits with zeros and reading it as a SIGNED integer gives the same number: the widened
    word is `0` or `1`, never negative. -/
theorem keep_signed (len : BitVec 32) (s : Fin 1024) :
    FloatOps.sitofp (F := Ideal) .f32 ((keepBit len s).setWidth 32) = keep len s := by
  have h : ∀ c : BitVec 1, (c.setWidth 32).toInt = (c.toNat : ℤ) := by decide
  show (((((keepBit len s).setWidth 32).toInt : ℤ) : ℝ) : EReal) = (((keepBit len s).toNat : ℝ) : EReal)
  rw [h]
  norm_cast

/-- Entry `(e, q)` of row `b`'s bound tensor: the sum over the positions `s` of filler `(b, s, e)` times role
    `(b, s, q)` times the position's keep factor. -/
def tsAt (f : (⟨3, ![128, 1024, 256]⟩ : Shape).Idx → EReal) (r : (⟨3, ![128, 1024, 64]⟩ : Shape).Idx → EReal)
    (L : Fin 128 → BitVec 32) (b : Fin 128) (e : Fin 256) (q : Fin 64) : EReal :=
  ∑ s : Fin 1024, f (ix3 b s e) * (r (ix3 b s q) * keep (L b) s)

/-- The bound tensors of all rows as one array `[128, 256, 64]`. -/
def TS (f : (⟨3, ![128, 1024, 256]⟩ : Shape).Idx → EReal) (r : (⟨3, ![128, 1024, 64]⟩ : Shape).Idx → EReal)
    (L : Fin 128 → BitVec 32) : (⟨3, ![128, 256, 64]⟩ : Shape).Idx → EReal :=
  fun i => tsAt f r L ⟨(i 0).val, (i 0).isLt⟩ ⟨(i 1).val, (i 1).isLt⟩ ⟨(i 2).val, (i 2).isLt⟩

theorem TS_apply (f : (⟨3, ![128, 1024, 256]⟩ : Shape).Idx → EReal) (r : (⟨3, ![128, 1024, 64]⟩ : Shape).Idx → EReal)
    (L : Fin 128 → BitVec 32) (b : Fin 128) (e : Fin 256) (q : Fin 64) :
    TS f r L (ix3 b e q) = tsAt f r L b e q := rfl

/-- Entry `(p, q)` of the linear layer: row `p` of the flattened tensors against row `q` of the weights, plus
    the bias of output `q`. -/
def outAt (a : (⟨2, ![128, 16384]⟩ : Shape).Idx → EReal) (W : (⟨2, ![1024, 16384]⟩ : Shape).Idx → EReal)
    (Bv : Fin 1024 → EReal) (p : Fin 128) (q : Fin 1024) : EReal :=
  (∑ k : Fin 16384, a (ix2 p k) * W (ix2 q k)) + Bv q

/-- The layer's result as one array `[128, 1024]`. -/
def OUT (a : (⟨2, ![128, 16384]⟩ : Shape).Idx → EReal) (W : (⟨2, ![1024, 16384]⟩ : Shape).Idx → EReal)
    (Bv : Fin 1024 → EReal) : (⟨2, ![128, 1024]⟩ : Shape).Idx → EReal :=
  fun i => outAt a W Bv ⟨(i 0).val, (i 0).isLt⟩ ⟨(i 1).val, (i 1).isLt⟩

theorem OUT_apply (a : (⟨2, ![128, 16384]⟩ : Shape).Idx → EReal) (W : (⟨2, ![1024, 16384]⟩ : Shape).Idx → EReal)
    (Bv : Fin 1024 → EReal) (p : Fin 128) (q : Fin 1024) : OUT a W Bv (ix2 p q) = outAt a W Bv p q := rfl

/-- THE RESULT of the whole program from its five arguments: the rows' bound tensors, flattened row by row (the
    contiguous recast of `[128, 256, 64]` as `[128, 16384]`), through the linear layer. -/
def result (h : (⟨3, ![128, 256, 64]⟩ : Shape).ShapeCasts ⟨2, ![128, 16384]⟩)
    (f : (⟨3, ![128, 1024, 256]⟩ : Shape).Idx → EReal) (r : (⟨3, ![128, 1024, 64]⟩ : Shape).Idx → EReal)
    (len : (⟨1, ![128]⟩ : Shape).Idx → BitVec 32) (W : (⟨2, ![1024, 16384]⟩ : Shape).Idx → EReal)
    (bias : (⟨1, ![1024]⟩ : Shape).Idx → EReal) : (⟨2, ![128, 1024]⟩ : Shape).Idx → EReal :=
  OUT (shapeCast ⟨2, ![128, 16384]⟩ (TS f r (fun b => len (ix1 b))) h) W (fun q => bias (ix1 q))

end Cert.Bind

end
-- ==== Proof.LibBatchDot.lean ====
/-
  A BATCHED matrix product read at coordinates, at the ideal values.

  Two rank-3 arrays `A : [B, K, M]` and `R : [B, K, N]` share a batch axis (the first) and are contracted along
  their middle axis: for every batch `b` the result `[B, M, N]` holds `A (b, ·, ·)ᵀ · R (b, ·, ·)`. Into a zero
  accumulator the entry `(b, m, n)` is the sum over `j` of `A (b, j, m) · R (b, j, n)`. The six coordinate facts of
  the dimension numbers are hypotheses (each record proves them by unfolding).
-/
import Idealize.ShloMosaic.Lib.ValueIdx
import Idealize.ShloMosaic.PureOps.Ideal.Laws

noncomputable section

namespace Cert.LibBatchDot

open Idealize.ShloMosaic Idealize.ShloMosaic.ValueIdx
open scoped BigOperators

/-- The batched product into zeros that contracts the middle axis of both operands is, at entry `(b, m, n)`, the
    sum over the contraction position `j` of `A (b, j, m) · R (b, j, n)`. -/
theorem matmul_zero_batch_mid {B K M N : Nat} {φ₁ φ₂ : FTy}
    (D : DotDims ⟨3, ![B, K, M]⟩ ⟨3, ![B, K, N]⟩ ⟨3, ![B, M, N]⟩) (hr : D.contr.rank = 1)
    (hs : D.contr.size ⟨0, by omega⟩ = K)
    (l0 : ∀ (i : (⟨3, ![B, M, N]⟩ : Shape).Idx) (q : D.contr.Idx), (D.lhsIdx i q 0).val = (i 0).val)
    (l1 : ∀ (i : (⟨3, ![B, M, N]⟩ : Shape).Idx) (q : D.contr.Idx), (D.lhsIdx i q 1).val = (q ⟨0, by omega⟩).val)
    (l2 : ∀ (i : (⟨3, ![B, M, N]⟩ : Shape).Idx) (q : D.contr.Idx), (D.lhsIdx i q 2).val = (i 1).val)
    (r0 : ∀ (i : (⟨3, ![B, M, N]⟩ : Shape).Idx) (q : D.contr.Idx), (D.rhsIdx i q 0).val = (i 0).val)
    (r1 : ∀ (i : (⟨3, ![B, M, N]⟩ : Shape).Idx) (q : D.contr.Idx), (D.rhsIdx i q 1).val = (q ⟨0, by omega⟩).val)
    (r2 : ∀ (i : (⟨3, ![B, M, N]⟩ : Shape).Idx) (q : D.contr.Idx), (D.rhsIdx i q 2).val = (i 2).val)
    (prec : Option ContractPrecision) (A : FVec Ideal ⟨3, ![B, K, M]⟩ φ₁) (R : FVec Ideal ⟨3, ![B, K, N]⟩ φ₂)
    (b : Fin B) (m : Fin M) (n : Fin N) :
    matmul D prec A R (constant ⟨3, ![B, M, N]⟩ .f32 0x00000000#32) (ix3 b m n)
      = ∑ j : Fin K, A (ix3 b j m) * R (ix3 b j n) := by
  show FloatOps.matmul D prec A R (constant ⟨3, ![B, M, N]⟩ .f32 0x00000000#32) (ix3 b m n) = _
  rw [Ideal.matmul_constant_zero_apply, ← Equiv.sum_comp (contrEquiv1 D K hr hs).symm]
  refine Finset.sum_congr rfl fun j _ => ?_
  have hk := contrEquiv1_symm_val D K hr hs j
  have el : D.lhsIdx (ix3 b m n) ((contrEquiv1 D K hr hs).symm j) = ix3 b j m := funext fun ax => Fin.ext (by
    match ax with
    | ⟨0, _⟩ => exact l0 _ _
    | ⟨1, _⟩ => exact (l1 _ _).trans hk
    | ⟨2, _⟩ => exact l2 _ _)
  have er : D.rhsIdx (ix3 b m n) ((contrEquiv1 D K hr hs).symm j) = ix3 b j n := funext fun ax => Fin.ext (by
    match ax with
    | ⟨0, _⟩ => exact r0 _ _
    | ⟨1, _⟩ => exact (r1 _ _).trans hk
    | ⟨2, _⟩ => exact r2 _ _)
  rw [el, er]

end Cert.LibBatchDot

end
-- ==== Proof.LibOuterLayout.lean ====
/-
  The layout steps of an OUTER (pairwise) combination of two matrices, read at coordinates.
  To combine every row of a matrix `A : [a, b]` with every column of a matrix `B : [b, c]` entry by entry, `A` is
  given a trailing unit axis, `[a, b, 1]`, and repeated along it to `[a, b, c]`; `B` is given a leading unit axis,
  `[1, b, c]`, and repeated along it to `[a, b, c]`. At `(i, d, k)` the first then holds `A (i, d)` and the second
  `B (d, k)`. A sum of such a rank-3 array over its MIDDLE axis, read at `(i, k)`, is the sum over `d` of the
  entries `(i, d, k)`.
-/
import Idealize.ShloMosaic.Lib.ValueLayout
import Idealize.ShloMosaic.Lib.ValueIdx
import Idealize.ShloMosaic.PureOps.Ideal.Laws

noncomputable section

namespace Cert.LibOuterLayout

open Idealize.ShloMosaic Idealize.ShloMosaic.ValueIdx

variable {α : Type}

/-- A matrix `[a, b]` recast with a trailing unit axis, `[a, b, 1]`, reads at `(i, j, u)` the matrix at `(i, j)`:
    the row-major position of `(i, j, u)` in `[a, b, 1]` is `(i · b + j) · 1 + 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array `[a, b, 1]` repeated along its unit axis to `[a, b, c]` reads at `(i, j, k)` its entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An array `[1, b, c]` repeated along its unit axis to `[a, b, c]` reads at `(i, j, k)` its entry `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- So the rows of `A : [a, b]`, recast and repeated to `[a, b, c]`, read at `(i, d, k)` the entry `A (i, d)`. -/
theorem rows_apply {a b c : ℕ} (A : (⟨2, ![a, b]⟩ : Shape).Idx → α)
    (h₁ : (⟨2, ![a, b]⟩ : Shape).ShapeCasts ⟨3, ![a, b, 1]⟩) (h₂ : (⟨3, ![a, b, 1]⟩ : Shape).Broadcasts ⟨3, ![a, b, c]⟩)
    (i : Fin a) (d : Fin b) (k : Fin c) :
    broadcastTo ⟨3, ![a, b, c]⟩ (shapeCast ⟨3, ![a, b, 1]⟩ A h₁) h₂ (ix3 i d k) = A (ix2 i d) :=
  (broadcastTo_ab1_abc_apply _ h₂ i d k).trans (shapeCast_ab_ab1_apply A h₁ i d 0)

/-- And the columns of `B : [b, c]`, recast and repeated to `[a, b, c]`, read at `(i, d, k)` the entry `B (d, k)`. -/
theorem cols_apply {a b c : ℕ} (B : (⟨2, ![b, c]⟩ : Shape).Idx → α)
    (h₁ : (⟨2, ![b, c]⟩ : Shape).ShapeCasts ⟨3, ![1, b, c]⟩) (h₂ : (⟨3, ![1, b, c]⟩ : Shape).Broadcasts ⟨3, ![a, b, c]⟩)
    (i : Fin a) (d : Fin b) (k : Fin c) :
    broadcastTo ⟨3, ![a, b, c]⟩ (shapeCast ⟨3, ![1, b, c]⟩ B h₁) h₂ (ix3 i d k) = B (ix2 d k) :=
  (broadcastTo_1bc_abc_apply _ h₂ i d k).trans (shapeCast_ab_1ab_apply B h₁ 0 d k)

end Cert.LibOuterLayout

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.Pay0.lean ====
/-
  What the first kernel's body stores, read at one entry.

  The body holds a block of 16 batch rows: fillers `[16, 1024, 256]`, roles `[16, 1024, 64]` and the rows'
  lengths as a column `[16, 1]`. It compares the position number (an iota along the sequence axis) with the row's
  length, turns the bit into the number 0 or 1, multiplies the roles by it along the sequence, and contracts fillers
  against the masked roles over the sequence axis, batch row by batch row, into zeros. The changes of float format
  are the identity on extended reals. So entry `(p, e, q)` of what it stores is the sum over the positions `s` of
  filler `(p, s, e)` · (role `(p, s, q)` · keep factor of `s` in row `p`).
-/
import proofs.«157740_j3367254360395_2_alg».proof.Proof.Gen.KernelIdeal.Skeleton
import proofs.«157740_j3367254360395_2_alg».proof.Proof.Spec
import proofs.«157740_j3367254360395_2_alg».proof.Proof.LibBatchDot
import proofs.«157740_j3367254360395_2_alg».proof.Proof.LibOuterLayout
import proofs.«157740_j3367254360395_2_alg».proof.Proof.LibKeepdims
import Idealize.ShloMosaic.Lib.Pipeline.Value

noncomputable section

namespace Cert.KernelIdeal.Pay0

open Cert.KernelIdeal Cert.KernelIdeal.Gen Idealize.ShloMosaic Idealize.ShloMosaic.ValueIdx Cert.Bind
open scoped BigOperators

/-! ## The batched contraction's dimension numbers, coordinate by coordinate -/

theorem dot_l0 (i : S16x256x64.Idx) (q : dot_S16x1024x256_S16x1024x64_S16x256x64_1_1_2_2_0_0.contr.Idx) :
    (dot_S16x1024x256_S16x1024x64_S16x256x64_1_1_2_2_0_0.lhsIdx i q 0).val = (i 0).val := by
  unfold DotDims.lhsIdx
  rw [dif_pos (show (0 : Fin S16x1024x256.rank) ∈ dot_S16x1024x256_S16x1024x64_S16x256x64_1_1_2_2_0_0.lhsBatch by decide)]
  rfl
theorem dot_l1 (i : S16x256x64.Idx) (q : dot_S16x1024x256_S16x1024x64_S16x256x64_1_1_2_2_0_0.contr.Idx) :
    (dot_S16x1024x256_S16x1024x64_S16x256x64_1_1_2_2_0_0.lhsIdx i q 1).val = (q ⟨0, by decide⟩).val :=
  dot_S16x1024x256_S16x1024x64_S16x256x64_1_1_2_2_0_0.lhsIdx_val_of_single rfl i q
theorem dot_l2 (i : S16x256x64.Idx) (q : dot_S16x1024x256_S16x1024x64_S16x256x64_1_1_2_2_0_0.contr.Idx) :
    (dot_S16x1024x256_S16x1024x64_S16x256x64_1_1_2_2_0_0.lhsIdx i q 2).val = (i 1).val := by
  unfold DotDims.lhsIdx
  rw [dif_neg (show ¬(2 : Fin S16x1024x256.rank) ∈ dot_S16x1024x256_S16x1024x64_S16x256x64_1_1_2_2_0_0.lhsBatch by decide), dif_pos (show (2 : Fin S16x1024x256.rank) ∈ dot_S16x1024x256_S16x1024x64_S16x256x64_1_1_2_2_0_0.lhsNonContracting by decide)]
  rfl
theorem dot_r0 (i : S16x256x64.Idx) (q : dot_S16x1024x256_S16x1024x64_S16x256x64_1_1_2_2_0_0.contr.Idx) :
    (dot_S16x1024x256_S16x1024x64_S16x256x64_1_1_2_2_0_0.rhsIdx i q 0).val = (i 0).val := by
  unfold DotDims.rhsIdx
  rw [dif_pos (show (0 : Fin S16x1024x64.rank) ∈ dot_S16x1024x256_S16x1024x64_S16x256x64_1_1_2_2_0_0.rhsBatch by decide)]
  rfl
theorem dot_r1 (i : S16x256x64.Idx) (q : dot_S16x1024x256_S16x1024x64_S16x256x64_1_1_2_2_0_0.contr.Idx) :
    (dot_S16x1024x256_S16x1024x64_S16x256x64_1_1_2_2_0_0.rhsIdx i q 1).val = (q ⟨0, by decide⟩).val :=
  dot_S16x1024x256_S16x1024x64_S16x256x64_1_1_2_2_0_0.rhsIdx_val_of_single rfl i q
theorem dot_r2 (i : S16x256x64.Idx) (q : dot_S16x1024x256_S16x1024x64_S16x256x64_1_1_2_2_0_0.contr.Idx) :
    (dot_S16x1024x256_S16x1024x64_S16x256x64_1_1_2_2_0_0.rhsIdx i q 2).val = (i 2).val := by
  unfold DotDims.rhsIdx
  rw [dif_neg (show ¬(2 : Fin S16x1024x64.rank) ∈ dot_S16x1024x256_S16x1024x64_S16x256x64_1_1_2_2_0_0.rhsBatch by decide), dif_pos (show (2 : Fin S16x1024x64.rank) ∈ dot_S16x1024x256_S16x1024x64_S16x256x64_1_1_2_2_0_0.rhsNonContracting by decide)]
  rfl

/-! ## The keep factors of a block -/

/-- The block's keep factors `[16, 1024]` as the body computes them from the column of lengths. -/
def maskv (v1 : Vec Ideal S16x1 .i32) : FVec Ideal S16x1024 .f32 :=
  sitofp .f32 (extui 32 (cmpi .slt (iota .tc S16x1024 32 [1] iota_S16x1024_d1_w32)
    (broadcastTo S16x1024 (shapeCast S16x1 v1 shapeCasts_S16x1_S16x1) broadcasts_S16x1_S16x1024)) natLt_1_32)

/-- At `(p, s)` it is the keep factor of position `s` in a row of the length the column holds for row `p`. -/
theorem maskv_apply (v1 : Vec Ideal S16x1 .i32) (p : Fin 16) (s : Fin 1024) :
    maskv v1 (ix2 p s) = keep (v1 (ix2 p (0 : Fin 1))) s := by
  show FloatOps.sitofp (F := Ideal) .f32 ((IntOp.cmpi .slt (iota .tc S16x1024 32 [1] iota_S16x1024_d1_w32 (ix2 p s))
    (broadcastTo S16x1024 (shapeCast S16x1 v1 shapeCasts_S16x1_S16x1) broadcasts_S16x1_S16x1024 (ix2 p s))).setWidth 32) = _
  rw [iota_single_apply, LibKeepdims.broadcastTo_a1_ab_apply, shapeCast_self]
  exact keep_signed _ s

/-! ## The stored value -/

/-- The body's stored value is the batched contraction of the fillers with the masked roles. -/
theorem pay_eq (v1 : Vec Ideal S16x1 .i32) (v7 : Vec Ideal S16x1024x256 .f32) (v9 : Vec Ideal S16x1024x64 .f32) :
    k0_pay1 (F := Ideal) v1 v7 v9
      = matmul dot_S16x1024x256_S16x1024x64_S16x256x64_1_1_2_2_0_0 none (truncf .bf16 v7 bitsLt_bf16_f32)
          (truncf .bf16 (mulf v9 (broadcastTo S16x1024x64 (shapeCast S16x1024x1 (maskv v1) shapeCasts_S16x1024_S16x1024x1) broadcasts_S16x1024x1_S16x1024x64)) bitsLt_bf16_f32)
          (constant S16x256x64 .f32 0x00000000#32) := rfl

/-- Entry `(p, e, q)` of it. -/
theorem pay_apply (v1 : Vec Ideal S16x1 .i32) (v7 : Vec Ideal S16x1024x256 .f32) (v9 : Vec Ideal S16x1024x64 .f32)
    (p : Fin 16) (e : Fin 256) (q : Fin 64) :
    k0_pay1 (F := Ideal) v1 v7 v9 (ix3 p e q)
      = ∑ s : Fin 1024, v7 (ix3 p s e) * (v9 (ix3 p s q) * keep (v1 (ix2 p (0 : Fin 1))) s) := by
  rw [pay_eq]
  refine (LibBatchDot.matmul_zero_batch_mid dot_S16x1024x256_S16x1024x64_S16x256x64_1_1_2_2_0_0 rfl rfl dot_l0 dot_l1 dot_l2 dot_r0 dot_r1 dot_r2 none _ _ p e q).trans ?_
  refine Finset.sum_congr rfl fun s _ => ?_
  show v7 (ix3 p s e) * (v9 (ix3 p s q) * broadcastTo S16x1024x64 (shapeCast S16x1024x1 (maskv v1) shapeCasts_S16x1024_S16x1024x1) broadcasts_S16x1024x1_S16x1024x64 (ix3 p s q)) = _
  rw [LibOuterLayout.rows_apply, maskv_apply]

end Cert.KernelIdeal.Pay0

end
-- ==== Proof.Blocks0.lean ====
/-
  The first kernel's output array after its region, as one function of the arrays the region finds.

  The grid has 8 points; point `t` works on batch rows `16 t … 16 t + 15`: its blocks of the fillers, the roles and
  the column of lengths are those rows of the three arrays, and what it writes back is those rows of the result.
  Every entry `(b, e, q)` of the result depends on row `b` of the inputs only, so what point `t` writes back is its
  block of ONE whole-array function, the bound tensors `TS`; the eight blocks tile the 128 rows; so the array ends
  holding `TS` of the arrays the region was entered with.
-/
import proofs.«157740_j3367254360395_2_alg».proof.Proof.Gen.KernelIdeal.Frame
import proofs.«157740_j3367254360395_2_alg».proof.Proof.Pay0
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.ShloMosaic.ValueIdx Cert.Bind
open Idealize.SL.Sem
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: at point `t` every window is at block `t` of its first axis
    and at block 0 of the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- One entry of a block of 16 rows starting at row `16 T`: if the three input blocks are those rows of three
    arrays, the body's stored entry `j` is the bound tensors' entry at the same place `i` of the whole array. -/
theorem block_entry (x0 : Vec Ideal S16x1024x256 .f32) (x1 : Vec Ideal S16x1024x64 .f32) (x2 : Vec Ideal S16x1 .i32)
    (f : S128x1024x256.Idx → EReal) (r : S128x1024x64.Idx → EReal) (l : S128x1.Idx → BitVec 32) (T : ℕ)
    (h0 : ∀ (p : Fin 16) (s : Fin 1024) (e : Fin 256) (hb : T * 16 + p.val < 128), x0 (ix3 p s e) = f (ix3 (⟨T * 16 + p.val, hb⟩ : Fin 128) s e))
    (h1 : ∀ (p : Fin 16) (s : Fin 1024) (q : Fin 64) (hb : T * 16 + p.val < 128), x1 (ix3 p s q) = r (ix3 (⟨T * 16 + p.val, hb⟩ : Fin 128) s q))
    (h2 : ∀ (p : Fin 16) (hb : T * 16 + p.val < 128), x2 (ix2 p (0 : Fin 1)) = l (ix2 (⟨T * 16 + p.val, hb⟩ : Fin 128) (0 : Fin 1)))
    (j : S16x256x64.Idx) (i : S128x256x64.Idx)
    (hi0 : (i 0).val = T * 16 + (j 0).val) (hi1 : (i 1).val = (j 1).val) (hi2 : (i 2).val = (j 2).val) :
    k0_pay1 (F := Ideal) x2 x0 x1 j = TS f r (fun b => l (ix2 b (0 : Fin 1))) i := by
  obtain ⟨p, e, q, rfl⟩ : ∃ (p : Fin 16) (e : Fin 256) (q : Fin 64), j = ix3 p e q := ⟨j 0, j 1, j 2, eq_ix3 j⟩
  obtain ⟨b, e', q', rfl⟩ : ∃ (b : Fin 128) (e' : Fin 256) (q' : Fin 64), i = ix3 b e' q' := ⟨i 0, i 1, i 2, eq_ix3 i⟩
  have hb : T * 16 + p.val < 128 := by have := b.isLt; have h : b.val = T * 16 + p.val := hi0; omega
  obtain rfl : b = ⟨T * 16 + p.val, hb⟩ := Fin.ext hi0
  obtain rfl : e' = e := Fin.ext hi1
  obtain rfl : q' = q := Fin.ext hi2
  rw [Pay0.pay_apply, TS_apply]
  unfold tsAt
  refine Finset.sum_congr rfl fun s _ => ?_
  rw [h0 p s e' hb, h1 p s q' hb, h2 p hb]

/-- WHAT POINT `t` WRITES BACK is block `t` of the bound tensors of the arrays as the region finds them. -/
theorem flushed (c : Dev nD) (t : Fin cfg0.N) :
    (dat0 (F := Ideal) V c).flushed 3 t = ((cfg0.win 3).blk t).view.read (Elt Ideal)
      (TS (V c main_arg0) (V c main_arg1) (fun b => V c main_v0 (ix2 b (0 : Fin 1)))) := by
  show (cfg0.win 3).cut (grid0.coords t) ((dat0 (F := Ideal) V c).after 3 t) = _
  rw [after0_3]
  unfold out0_3
  rw [View.canon_unit_zero hz3]
  simp only [View.ld_unit_zero (S := S16x1024x256) hz3, View.ld_unit_zero (S := S16x1024x64) hz3, View.ld_unit_zero (S := S16x1) hz2]
  obtain ⟨a00, a01, a02, a10, a11, a12, a20, a21, a30, a31, a32⟩ := idx_facts t
  funext j
  refine block_entry (iblk0 V c 0 t) (iblk0 V c 1 t) (iblk0 V c 2 t) (V c main_arg0) (V c main_arg1) (V c main_v0) t.val
    ?_ ?_ ?_ j (((cfg0.win 3).blk t).view.emb j) ?_ ?_ ?_
  · intro p s e hb
    show V c main_arg0 (((cfg0.win 0).blk t).view.emb (ix3 p s e)) = V c main_arg0 (ix3 (⟨t.val * 16 + p.val, hb⟩ : Fin 128) s e)
    refine congrArg _ (funext fun a => Fin.ext ?_)
    match a with
    | ⟨0, _⟩ => show win0_0.index t (0 : Fin 3) * 16 + 1 * p.val = t.val * 16 + p.val; rw [a00]; omega
    | ⟨1, _⟩ => show win0_0.index t (1 : Fin 3) * 1024 + 1 * s.val = s.val; rw [a01]; omega
    | ⟨2, _⟩ => show win0_0.index t (2 : Fin 3) * 256 + 1 * e.val = e.val; rw [a02]; omega
  · intro p s q hb
    show V c main_arg1 (((cfg0.win 1).blk t).view.emb (ix3 p s q)) = V c main_arg1 (ix3 (⟨t.val * 16 + p.val, hb⟩ : Fin 128) s q)
    refine congrArg _ (funext fun a => Fin.ext ?_)
    match a with
    | ⟨0, _⟩ => show win0_1.index t (0 : Fin 3) * 16 + 1 * p.val = t.val * 16 + p.val; rw [a10]; omega
    | ⟨1, _⟩ => show win0_1.index t (1 : Fin 3) * 1024 + 1 * s.val = s.val; rw [a11]; omega
    | ⟨2, _⟩ => show win0_1.index t (2 : Fin 3) * 64 + 1 * q.val = q.val; rw [a12]; omega
  · intro p hb
    show V c main_v0 (((cfg0.win 2).blk t).view.emb (ix2 p (0 : Fin 1))) = V c main_v0 (ix2 (⟨t.val * 16 + p.val, hb⟩ : Fin 128) (0 : Fin 1))
    refine congrArg _ (funext fun a => Fin.ext ?_)
    match a with
    | ⟨0, _⟩ => show win0_2.index t (0 : Fin 2) * 16 + 1 * p.val = t.val * 16 + p.val; rw [a20]; omega
    | ⟨1, _⟩ => show win0_2.index t (1 : Fin 2) * 1 + 1 * 0 = 0; rw [a21]
  · show win0_3.index t (0 : Fin 3) * 16 + 1 * (j 0).val = t.val * 16 + (j 0).val; rw [a30]; omega
  · show win0_3.index t (1 : Fin 3) * 256 + 1 * (j 1).val = (j 1).val; rw [a31]; omega
  · show win0_3.index t (2 : Fin 3) * 64 + 1 * (j 2).val = (j 2).val; rw [a32]; omega

/-- An index of the array is in point `t`'s block iff each coordinate is in the block's range on its axis. -/
theorem mem_blk (t : Fin cfg0.N) (i : S128x256x64.Idx) :
    i ∈ ((cfg0.win 3).blk t).view.set ↔ ∀ a : Fin 3, win0_3.index t a * S16x256x64.size a ≤ (i a).val ∧ (i a).val < win0_3.index t a * S16x256x64.size a + S16x256x64.size a := by
  show i ∈ ((View.whole main_v1).slice (win0_3.rect t)).set ↔ _
  rw [View.set_slice_whole, Rect.mem_set_unit]
  exact Iff.rfl

/-- Every entry of the result is in the block of the point that owns its batch row, `b / 16`. -/
theorem cover (i : S128x256x64.Idx) :
    ∃ t : Fin cfg0.N, (cfg0.win 3).flush t = true ∧ i ∈ ((cfg0.win 3).blk t).view.set := by
  have hi0 : (i 0).val < 128 := (i 0).isLt
  have hi1 : (i 1).val < 256 := (i 1).isLt
  have hi2 : (i 2).val < 64 := (i 2).isLt
  have hN : cfg0.N = 8 := N_0
  let t : Fin cfg0.N := ⟨(i 0).val / 16, by rw [hN]; omega⟩
  obtain ⟨-, -, -, -, -, -, -, -, a30, a31, a32⟩ := idx_facts t
  have ht : t.val = (i 0).val / 16 := rfl
  refine ⟨t, flush0_3 t, ?_⟩
  rw [mem_blk]
  intro a
  match a with
  | ⟨0, _⟩ => show win0_3.index t (0 : Fin 3) * 16 ≤ (i 0).val ∧ (i 0).val < win0_3.index t (0 : Fin 3) * 16 + 16; rw [a30, ht]; omega
  | ⟨1, _⟩ => show win0_3.index t (1 : Fin 3) * 256 ≤ (i 1).val ∧ (i 1).val < win0_3.index t (1 : Fin 3) * 256 + 256; rw [a31]; omega
  | ⟨2, _⟩ => show win0_3.index t (2 : Fin 3) * 64 ≤ (i 2).val ∧ (i 2).val < win0_3.index t (2 : Fin 3) * 64 + 64; rw [a32]; omega

/-- THE ARRAY after the region: the bound tensors of the arrays the region was entered with. -/
theorem final (c : Dev nD) :
    (dat0 (F := Ideal) V c).arrAt 3 cfg0.N
      = TS (V c main_arg0) (V c main_arg1) (fun b => V c main_v0 (ix2 b (0 : Fin 1))) :=
  (dat0 (F := Ideal) V c).arrAt_eq_of_cover 3 _ (fun t _ => flushed V c t) cover

end Cert.KernelIdeal.Blocks0

end
-- ==== Proof.LibRowLanes.lean ====
/-
  Matrices `[a, b]` handled along their rows, read at coordinates, at the ideal values.

  * a sum over the last axis, at row `i`, is the sum over `k` of the entries `(i, k)`; a maximum over it is the fold
    of `max` over those entries from the accumulator's value;
  * a matrix product into a zero accumulator whose dimension numbers contract the LAST axis of both operands —
    rows against rows, `A · Bᵀ` — is at `(p, q)` the sum over `j` of `A (p, j) · B (q, j)`. The four coordinate facts
    of the dimension numbers are hypotheses (each record proves them by unfolding).
-/
import Idealize.ShloMosaic.Lib.ValueIdx
import Idealize.ShloMosaic.PureOps.Ideal.Laws

noncomputable section

namespace Cert.LibRowLanes

open Idealize.ShloMosaic Idealize.ShloMosaic.ValueIdx
open scoped BigOperators

/-- The index `i` of `[a]` with `k` inserted on the last axis of `[a, b]` is `(i, k)`. -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A float sum over the last axis, read at row `i` on the extended reals: the sum of the entries `(i, k)`. -/
theorem sum_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (i : Fin a) :
    multiReduction .add [1] ⟨1, ![a]⟩ v acc h hφ hacc (ix1 i) = ∑ k : Fin b, v (ix2 i k) := by
  refine (Ideal.multiReduction_add_single v acc h hφ hacc (ix1 i)).trans ?_
  exact Finset.sum_congr rfl fun k _ => congrArg v (lift_row h i k)

/-- A float maximum over the last axis, read at row `i`: the fold of `max` over the entries `(i, k)` from the
    accumulator's value. -/
theorem max_row_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (i : Fin a) :
    multiReduction .maximumf [1] ⟨1, ![a]⟩ v acc h hφ hacc (ix1 i)
      = (Finset.univ : Finset (Fin b)).fold max (Ideal.ofBits .f32 acc) (fun k => v (ix2 i k)) := by
  refine (Ideal.multiReduction_maximumf_single v acc h hφ hacc (ix1 i)).trans ?_
  exact congrArg (Finset.univ.fold max (Ideal.ofBits .f32 acc)) (funext fun k => congrArg v (lift_row h i k))

/-- Rows against rows: the matrix product into zeros that contracts the last axis of both operands is, at entry
    `(p, q)`, the sum over the contraction position of `A (p, ·) · B (q, ·)`. -/
theorem matmul_zero_rows_rows {n k c : Nat} {φ₁ φ₂ : FTy}
    (D : DotDims ⟨2, ![n, k]⟩ ⟨2, ![c, k]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (i 1).val)
    (r1 : ∀ (i : (⟨2, ![n, c]⟩ : Shape).Idx) (q : D.contr.Idx), (D.rhsIdx i q 1).val = (q ⟨0, by omega⟩).val)
    (prec : Option ContractPrecision) (A : FVec Ideal ⟨2, ![n, k]⟩ φ₁) (B : FVec Ideal ⟨2, ![c, k]⟩ φ₂)
    (p : Fin n) (q : Fin c) :
    matmul D prec A B (constant ⟨2, ![n, c]⟩ .f32 0x00000000#32) (ix2 p q) = ∑ j : Fin k, A (ix2 p j) * B (ix2 q j) := by
  show FloatOps.matmul D prec A B (constant ⟨2, ![n, c]⟩ .f32 0x00000000#32) (ix2 p q) = _
  rw [Ideal.matmul_constant_zero_apply, ← Equiv.sum_comp (contrEquiv1 D k hr hs).symm]
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 q j := funext fun ax => Fin.ext (by
    match ax with
    | ⟨0, _⟩ => exact r0 _ _
    | ⟨1, _⟩ => exact (r1 _ _).trans hk)
  rw [el, er]

end Cert.LibRowLanes

end
-- ==== Proof.Pay1.lean ====
/-
  What the second kernel's body stores, read at one entry.

  The body holds all 128 flattened rows `[128, 16384]`, a block of 256 rows of the weights `[256, 16384]` and the
  matching 256 biases as a row `[1, 256]`. It contracts the flattened rows against the weight rows along their
  last axis, rows against rows, into zeros, and adds the bias row to every row of the product. So entry `(p, q)` of
  what it stores is the sum over `k` of flattened `(p, k)` · weight `(q, k)`, plus bias `q`.
-/
import proofs.«157740_j3367254360395_2_alg».proof.Proof.Gen.KernelIdeal.Skeleton
import proofs.«157740_j3367254360395_2_alg».proof.Proof.LibRowLanes
import Idealize.ShloMosaic.Lib.Pipeline.Value
import Idealize.ShloMosaic.Lib.ValueLayout

noncomputable section

namespace Cert.KernelIdeal.Pay1

open Cert.KernelIdeal Cert.KernelIdeal.Gen Idealize.ShloMosaic Idealize.ShloMosaic.ValueIdx
open scoped BigOperators

/-! ## The rows-against-rows contraction's dimension numbers, coordinate by coordinate -/

theorem dot_l0 (i : S128x256.Idx) (q : dot_S128x16384_S256x16384_S128x256_1_1_0_0_n_n.contr.Idx) :
    (dot_S128x16384_S256x16384_S128x256_1_1_0_0_n_n.lhsIdx i q 0).val = (i 0).val := by
  unfold DotDims.lhsIdx
  rw [dif_neg (show ¬(0 : Fin S128x16384.rank) ∈ dot_S128x16384_S256x16384_S128x256_1_1_0_0_n_n.lhsBatch by decide), dif_pos (show (0 : Fin S128x16384.rank) ∈ dot_S128x16384_S256x16384_S128x256_1_1_0_0_n_n.lhsNonContracting by decide)]
  rfl
theorem dot_l1 (i : S128x256.Idx) (q : dot_S128x16384_S256x16384_S128x256_1_1_0_0_n_n.contr.Idx) :
    (dot_S128x16384_S256x16384_S128x256_1_1_0_0_n_n.lhsIdx i q 1).val = (q ⟨0, by decide⟩).val :=
  dot_S128x16384_S256x16384_S128x256_1_1_0_0_n_n.lhsIdx_val_of_single rfl i q
theorem dot_r0 (i : S128x256.Idx) (q : dot_S128x16384_S256x16384_S128x256_1_1_0_0_n_n.contr.Idx) :
    (dot_S128x16384_S256x16384_S128x256_1_1_0_0_n_n.rhsIdx i q 0).val = (i 1).val := by
  unfold DotDims.rhsIdx
  rw [dif_neg (show ¬(0 : Fin S256x16384.rank) ∈ dot_S128x16384_S256x16384_S128x256_1_1_0_0_n_n.rhsBatch by decide), dif_pos (show (0 : Fin S256x16384.rank) ∈ dot_S128x16384_S256x16384_S128x256_1_1_0_0_n_n.rhsNonContracting by decide)]
  rfl
theorem dot_r1 (i : S128x256.Idx) (q : dot_S128x16384_S256x16384_S128x256_1_1_0_0_n_n.contr.Idx) :
    (dot_S128x16384_S256x16384_S128x256_1_1_0_0_n_n.rhsIdx i q 1).val = (q ⟨0, by decide⟩).val :=
  dot_S128x16384_S256x16384_S128x256_1_1_0_0_n_n.rhsIdx_val_of_single rfl i q

/-! ## The stored value -/

/-- The body's stored value: the product of the flattened rows with the weight rows, plus the bias row repeated. -/
theorem pay_eq (v0 : Vec Ideal S128x16384 .f32) (v3 : Vec Ideal S256x16384 .f32) (v6 : Vec Ideal S1x256 .f32) :
    k1_pay1 (F := Ideal) v0 v3 v6
      = addf (matmul dot_S128x16384_S256x16384_S128x256_1_1_0_0_n_n none (truncf .bf16 (shapeCast S128x16384 v0 shapeCasts_S128x16384_S128x16384) bitsLt_bf16_f32)
            (truncf .bf16 v3 bitsLt_bf16_f32) (constant S128x256 .f32 0x00000000#32))
          (broadcastTo S128x256 (shapeCast S1x256 v6 shapeCasts_S1x256_S1x256) broadcasts_S1x256_S128x256) := rfl

/-- Entry `(p, q)` of it. -/
theorem pay_apply (v0 : Vec Ideal S128x16384 .f32) (v3 : Vec Ideal S256x16384 .f32) (v6 : Vec Ideal S1x256 .f32)
    (p : Fin 128) (q : Fin 256) :
    k1_pay1 (F := Ideal) v0 v3 v6 (ix2 p q)
      = (∑ k : Fin 16384, v0 (ix2 p k) * v3 (ix2 q k)) + v6 (ix2 (0 : Fin 1) q) := by
  rw [pay_eq, shapeCast_self, shapeCast_self, addf_apply]
  refine congrArg₂ (· + ·) ?_ ?_
  · exact (LibRowLanes.matmul_zero_rows_rows dot_S128x16384_S256x16384_S128x256_1_1_0_0_n_n rfl rfl dot_l0 dot_l1 dot_r0 dot_r1 none _ _ p q).trans
      (Finset.sum_congr rfl fun k _ => rfl)
  · exact broadcastTo_1b_ab_apply v6 _ p q

end Cert.KernelIdeal.Pay1

end
-- ==== Proof.Blocks1.lean ====
/-
  The second kernel's output array after its region, as one function of the arrays the region finds.

  The grid has 4 points; point `t` produces output columns `256 t … 256 t + 255`: it reads all the flattened rows,
  rows `256 t …` of the weights and entries `256 t …` of the bias row, and writes back those columns of the result.
  Entry `(p, q)` of the result depends on weight row `q` and bias `q` only, so what point `t` writes back is its
  block of ONE whole-array function, the linear layer `OUT`; the four blocks tile the 1024 columns; so the array
  ends holding `OUT` of the arrays the region was entered with.
-/
import proofs.«157740_j3367254360395_2_alg».proof.Proof.Gen.KernelIdeal.Frame
import proofs.«157740_j3367254360395_2_alg».proof.Proof.Spec
import proofs.«157740_j3367254360395_2_alg».proof.Proof.Pay1
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.ShloMosaic.ValueIdx Cert.Bind
open Idealize.SL.Sem
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the flattened rows are one block; at point `t` the weights are
    at row block `t`, the bias row and the result at column block `t`. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- One entry of a block of 256 output columns starting at column `256 T`: if the weight block is those rows of
    the weights and the bias block those entries of the bias row, the body's stored entry `j` is the layer's entry at
    the same place `i` of the whole array. -/
theorem block_entry (x0 : Vec Ideal S128x16384 .f32) (x1 : Vec Ideal S256x16384 .f32) (x2 : Vec Ideal S1x256 .f32)
    (a : S128x16384.Idx → EReal) (W : S1024x16384.Idx → EReal) (bv : S1x1024.Idx → EReal) (T : ℕ)
    (h0 : ∀ (p : Fin 128) (k : Fin 16384), x0 (ix2 p k) = a (ix2 p k))
    (h1 : ∀ (q : Fin 256) (k : Fin 16384) (hb : T * 256 + q.val < 1024), x1 (ix2 q k) = W (ix2 (⟨T * 256 + q.val, hb⟩ : Fin 1024) k))
    (h2 : ∀ (q : Fin 256) (hb : T * 256 + q.val < 1024), x2 (ix2 (0 : Fin 1) q) = bv (ix2 (0 : Fin 1) (⟨T * 256 + q.val, hb⟩ : Fin 1024)))
    (j : S128x256.Idx) (i : S128x1024.Idx)
    (hi0 : (i 0).val = (j 0).val) (hi1 : (i 1).val = T * 256 + (j 1).val) :
    k1_pay1 (F := Ideal) x0 x1 x2 j = OUT a W (fun q => bv (ix2 (0 : Fin 1) q)) i := by
  obtain ⟨p, q, rfl⟩ : ∃ (p : Fin 128) (q : Fin 256), j = ix2 p q := ⟨j 0, j 1, eq_ix2 j⟩
  obtain ⟨p', n, rfl⟩ : ∃ (p' : Fin 128) (n : Fin 1024), i = ix2 p' n := ⟨i 0, i 1, eq_ix2 i⟩
  have hb : T * 256 + q.val < 1024 := by have := n.isLt; have h : n.val = T * 256 + q.val := hi1; omega
  obtain rfl : p' = p := Fin.ext hi0
  obtain rfl : n = ⟨T * 256 + q.val, hb⟩ := Fin.ext hi1
  rw [Pay1.pay_apply, OUT_apply]
  unfold outAt
  rw [h2 q hb]
  have hsum : (∑ k : Fin 16384, x0 (ix2 p' k) * x1 (ix2 q k))
      = ∑ k : Fin 16384, a (ix2 p' k) * W (ix2 (⟨T * 256 + q.val, hb⟩ : Fin 1024) k) :=
    Finset.sum_congr rfl fun k _ => by rw [h0 p' k, h1 q k hb]
  rw [hsum]

/-- WHAT POINT `t` WRITES BACK is block `t` of the linear layer of the arrays as the region finds them. -/
theorem flushed (c : Dev nD) (t : Fin cfg1.N) :
    (dat1 (F := Ideal) V c).flushed 3 t = ((cfg1.win 3).blk t).view.read (Elt Ideal)
      (OUT (V c main_v2) (V c main_arg3) (fun q => V c main_v3 (ix2 (0 : Fin 1) q))) := by
  show (cfg1.win 3).cut (grid1.coords t) ((dat1 (F := Ideal) V c).after 3 t) = _
  rw [after1_3]
  unfold out1_3
  rw [View.canon_unit_zero hz2]
  simp only [View.ld_unit_zero (S := S128x16384) hz2, View.ld_unit_zero (S := S256x16384) hz2, View.ld_unit_zero (S := S1x256) hz2]
  obtain ⟨a00, a01, a10, a11, a20, a21, a30, a31⟩ := idx_facts t
  funext j
  refine block_entry (iblk1 V c 0 t) (iblk1 V c 1 t) (iblk1 V c 2 t) (V c main_v2) (V c main_arg3) (V c main_v3) t.val
    ?_ ?_ ?_ j (((cfg1.win 3).blk t).view.emb j) ?_ ?_
  · intro p k
    show V c main_v2 (((cfg1.win 0).blk t).view.emb (ix2 p k)) = V c main_v2 (ix2 p k)
    refine congrArg _ (funext fun a => Fin.ext ?_)
    match a with
    | ⟨0, _⟩ => show win1_0.index t (0 : Fin 2) * 128 + 1 * p.val = p.val; rw [a00]; omega
    | ⟨1, _⟩ => show win1_0.index t (1 : Fin 2) * 16384 + 1 * k.val = k.val; rw [a01]; omega
  · intro q k hb
    show V c main_arg3 (((cfg1.win 1).blk t).view.emb (ix2 q k)) = V c main_arg3 (ix2 (⟨t.val * 256 + q.val, hb⟩ : Fin 1024) k)
    refine congrArg _ (funext fun a => Fin.ext ?_)
    match a with
    | ⟨0, _⟩ => show win1_1.index t (0 : Fin 2) * 256 + 1 * q.val = t.val * 256 + q.val; rw [a10]; omega
    | ⟨1, _⟩ => show win1_1.index t (1 : Fin 2) * 16384 + 1 * k.val = k.val; rw [a11]; omega
  · intro q hb
    show V c main_v3 (((cfg1.win 2).blk t).view.emb (ix2 (0 : Fin 1) q)) = V c main_v3 (ix2 (0 : Fin 1) (⟨t.val * 256 + q.val, hb⟩ : Fin 1024))
    refine congrArg _ (funext fun a => Fin.ext ?_)
    match a with
    | ⟨0, _⟩ => show win1_2.index t (0 : Fin 2) * 1 + 1 * 0 = 0; rw [a20]
    | ⟨1, _⟩ => show win1_2.index t (1 : Fin 2) * 256 + 1 * q.val = t.val * 256 + q.val; rw [a21]; omega
  · show win1_3.index t (0 : Fin 2) * 128 + 1 * (j 0).val = (j 0).val; rw [a30]; omega
  · show win1_3.index t (1 : Fin 2) * 256 + 1 * (j 1).val = t.val * 256 + (j 1).val; rw [a31]; omega

/-- An index of the array is in point `t`'s block iff each coordinate is in the block's range on its axis. -/
theorem mem_blk (t : Fin cfg1.N) (i : S128x1024.Idx) :
    i ∈ ((cfg1.win 3).blk t).view.set ↔ ∀ a : Fin 2, win1_3.index t a * S128x256.size a ≤ (i a).val ∧ (i a).val < win1_3.index t a * S128x256.size a + S128x256.size a := by
  show i ∈ ((View.whole main_v4).slice (win1_3.rect t)).set ↔ _
  rw [View.set_slice_whole, Rect.mem_set_unit]
  exact Iff.rfl

/-- Every entry of the result is in the block of the point that owns its column, `q / 256`. -/
theorem cover (i : S128x1024.Idx) :
    ∃ t : Fin cfg1.N, (cfg1.win 3).flush t = true ∧ i ∈ ((cfg1.win 3).blk t).view.set := by
  have hi0 : (i 0).val < 128 := (i 0).isLt
  have hi1 : (i 1).val < 1024 := (i 1).isLt
  have hN : cfg1.N = 4 := N_1
  let t : Fin cfg1.N := ⟨(i 1).val / 256, by rw [hN]; omega⟩
  obtain ⟨-, -, -, -, -, -, a30, a31⟩ := idx_facts t
  have ht : t.val = (i 1).val / 256 := rfl
  refine ⟨t, flush1_3 t, ?_⟩
  rw [mem_blk]
  intro a
  match a with
  | ⟨0, _⟩ => show win1_3.index t (0 : Fin 2) * 128 ≤ (i 0).val ∧ (i 0).val < win1_3.index t (0 : Fin 2) * 128 + 128; rw [a30]; omega
  | ⟨1, _⟩ => show win1_3.index t (1 : Fin 2) * 256 ≤ (i 1).val ∧ (i 1).val < win1_3.index t (1 : Fin 2) * 256 + 256; rw [a31, ht]; omega

/-- THE ARRAY after the region: the linear layer of the arrays the region was entered with. -/
theorem final (c : Dev nD) :
    (dat1 (F := Ideal) V c).arrAt 3 cfg1.N
      = OUT (V c main_v2) (V c main_arg3) (fun q => V c main_v3 (ix2 (0 : Fin 1) q)) :=
  (dat1 (F := Ideal) V c).arrAt_eq_of_cover 3 _ (fun t _ => flushed V c t) cover

end Cert.KernelIdeal.Blocks1

end
-- ==== Proof.KRun.lean ====
/-
  The kernel program's run with its result named.

  The program is a chain of four segments: a recast of the lengths `[128]` as a column `[128, 1]`; the first kernel's
  region; the recasts of the bound tensors `[128, 256, 64]` as `[128, 16384]` and of the bias `[1024]` as a row
  `[1, 1024]`; the second kernel's region. The buffers' contents at the four boundaries are a fold from the launch
  memory. Read at the result's buffer, the fold walks back: the second region leaves the linear layer of what it
  was entered with; its first operand is the recast of what the first region leaves, the bound tensors of the
  arguments; the weights are the argument itself, the bias row and the lengths' column are recasts of arguments.
-/
import proofs.«157740_j3367254360395_2_alg».proof.Proof.Gen.KernelIdeal.Frame
import proofs.«157740_j3367254360395_2_alg».proof.Proof.Spec
import proofs.«157740_j3367254360395_2_alg».proof.Proof.Blocks0
import proofs.«157740_j3367254360395_2_alg».proof.Proof.Blocks1
import proofs.«157740_j3367254360395_2_alg».proof.Proof.LibKeepdims
import Idealize.ShloMosaic.Lib.ValueLayout
import Idealize.ShloMosaic.Lib.StableHlo.Run

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Bind

local notation "𝕄" => MT nD τ sig Unit (Elt Ideal) ℕ (UR sig nD τ) ℕ

variable (m : (ℓ : Loc nD τ sig) → Buf (Elt Ideal) ℓ) (ρ : Dev nD → PrngReg)

/-! ## The run, every unscoped buffer read at the last boundary's contents -/

set_option backward.isDefEq.respectTransparency.types false in
/-- Every weakly fair execution of the program terminates, nothing faulting, with every unscoped buffer of every
    core at the contents the fold gives at the last boundary. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The fold, walked back from the result's buffer -/

/-- The first region is entered with the fillers and the roles as launched … -/
theorem V1_arg0 (c : Dev nD) : V1 m ρ c main_arg0 = m ((c : Thread nD τ).loc main_arg0) := by
  show StableHlo.after hostOps0 (W0 m ρ c) (Proc.devRef .tc main_arg0) = _
  after_results <;> rfl
theorem V1_arg1 (c : Dev nD) : V1 m ρ c main_arg1 = m ((c : Thread nD τ).loc main_arg1) := by
  show StableHlo.after hostOps0 (W0 m ρ c) (Proc.devRef .tc main_arg1) = _
  after_results <;> rfl
/-- … and with the lengths recast as a column. -/
theorem V1_v0 (c : Dev nD) :
    (V1 m ρ c main_v0 : S128x1.Idx → BitVec 32) = shapeCast S128x1 (m ((c : Thread nD τ).loc main_arg2)) shapeCasts_S128_S128x1 := by
  show StableHlo.after hostOps0 (W0 m ρ c) (Proc.devRef .tc main_v0) = _
  after_results <;> rfl

/-- What the first region leaves in its result: the bound tensors of the arguments. -/
theorem W2_v1 (c : Dev nD) :
    (W2 m ρ c (Proc.devRef .tc main_v1) : S128x256x64.Idx → EReal)
      = TS (m ((c : Thread nD τ).loc main_arg0)) (m ((c : Thread nD τ).loc main_arg1)) (fun b => m ((c : Thread nD τ).loc main_arg2) (ix1 b)) := by
  refine (W2_arr m ρ c 3).trans ((Blocks0.final (V1 m ρ) c).trans ?_)
  rw [V1_arg0, V1_arg1, V1_v0]
  refine congrArg (TS _ _) (funext fun b => ?_)
  exact LibKeepdims.shapeCast_a_a1_apply _ _ b 0

/-- The first region writes neither the weights nor the bias. -/
theorem W2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results <;> rfl
theorem W2_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results <;> rfl

/-- The second region is entered with the first region's result recast row by row, … -/
theorem V3_v2 (c : Dev nD) :
    (V3 m ρ c main_v2 : S128x16384.Idx → EReal)
      = shapeCast S128x16384 (W2 m ρ c (Proc.devRef .tc main_v1)) shapeCasts_S128x256x64_S128x16384 := by
  show StableHlo.after hostOps1 (W2 m ρ c) (Proc.devRef .tc main_v2) = _
  after_results <;> rfl
/-- … the weights as launched, … -/
theorem V3_arg3 (c : Dev nD) : V3 m ρ c main_arg3 = m ((c : Thread nD τ).loc main_arg3) := by
  refine Eq.trans ?_ (W2_arg3 m ρ c)
  show StableHlo.after hostOps1 (W2 m ρ c) (Proc.devRef .tc main_arg3) = _
  after_results <;> rfl
/-- … and the bias recast as a row. -/
theorem V3_v3 (c : Dev nD) :
    (V3 m ρ c main_v3 : S1x1024.Idx → EReal) = shapeCast S1x1024 (m ((c : Thread nD τ).loc main_arg4)) shapeCasts_S1024_S1x1024 := by
  refine Eq.trans ?_ (congrArg (fun x => shapeCast S1x1024 x shapeCasts_S1024_S1x1024) (W2_arg4 m ρ c))
  show StableHlo.after hostOps1 (W2 m ρ c) (Proc.devRef .tc main_v3) = _
  after_results <;> rfl

/-- THE RESULT's buffer at the last boundary: the whole program's function of the five arguments. -/
theorem W4_v4 (c : Dev nD) :
    (W4 m ρ c (Proc.devRef .tc main_v4) : S128x1024.Idx → EReal)
      = result shapeCasts_S128x256x64_S128x16384 (m ((c : Thread nD τ).loc main_arg0)) (m ((c : Thread nD τ).loc main_arg1))
          (m ((c : Thread nD τ).loc main_arg2)) (m ((c : Thread nD τ).loc main_arg3)) (m ((c : Thread nD τ).loc main_arg4)) := by
  refine (W4_arr m ρ c 3).trans ((Blocks1.final (V3 m ρ) c).trans ?_)
  rw [V3_v2, V3_arg3, V3_v3, W2_v1]
  unfold result
  refine congrArg (OUT _ _) (funext fun q => ?_)
  exact shapeCast_a_1a_apply _ _ 0 q

/-! ## The run, read -/

/-- Every weakly fair execution of the program terminates, nothing faulting, with the result at the whole
    program's function of the arguments and the arguments as launched. -/
theorem run : θ_run defs (onTc (τ := τ) (main (F := Ideal))) ⟨m, fun _ => 0, ρ⟩ (fun r => ∀ c : Dev nD,
      r.2.mem ((c : Thread nD τ).loc main_v4)
        = result shapeCasts_S128x256x64_S128x16384 (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c =>
      ⟨(h c _ (mem_uc main_v4 (by decide))).trans (W4_v4 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)
    (run_all m ρ)

end Cert.KernelIdeal.KRun

end
-- ==== Proof.RefValue.lean ====
/-
  The reference program computes the same function of its five arguments.

  Read one operation at a time: the position numbers against the lengths give the keep bit, read as an unsigned
  number; it is repeated along the fillers' last axis and multiplied into the fillers; the masked fillers are
  contracted with the roles over the sequence, batch row by batch row; the result is recast row by row; the weights
  are transposed and contracted with it; the bias is repeated along the rows and added. Against the whole
  program's function the only difference is where the keep factor sits in each product of the sequence sum:
  `(f · k) · r` here, `f · (r · k)` there — equal by commutativity and associativity of the product of extended
  reals, which hold without any finiteness.
-/
import proofs.«157740_j3367254360395_2_alg».proof.Proof.Gen.ReferenceIdeal.Read
import proofs.«157740_j3367254360395_2_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.Bind
open scoped BigOperators

/-- The reference's keep factors, repeated along the fillers' last axis, at `(b, s, e)`: the keep factor of position
    `s` in a row of length `len b`. -/
theorem mask_apply (x2 : (⟨S128, .i32⟩ : BufTy).Contents (Elt Ideal)) (b : Fin 128) (s : Fin 1024) (e : Fin 256) :
    val_main_v8 (F := Ideal) x2 (ix3 b s e) = keep (x2 (ix1 b)) s := by
  rw [val_main_v8_apply, val_main_v7_apply, val_main_v6_apply, val_main_v5_apply, val_main_v3_apply, val_main_v1_apply,
    val_main_v0_apply, val_main_v4_apply, val_main_v2_apply]
  have e2 : idx_main_v2 (idx_main_v4 (idx_main_v7 (idx_main_v8 (ix3 b s e)))) = ix1 b :=
    funext fun a => Fin.ext (by match a with | ⟨0, _⟩ => rfl)
  rw [e2]
  rfl

/-- The reference's batched contraction is the bound tensors. -/
theorem tensors_eq (x0 : (⟨S128x1024x256, .f32⟩ : BufTy).Contents (Elt Ideal)) (x1 : (⟨S128x1024x64, .f32⟩ : BufTy).Contents (Elt Ideal))
    (x2 : (⟨S128, .i32⟩ : BufTy).Contents (Elt Ideal)) :
    val_main_v10 (F := Ideal) x0 x1 x2 = TS x0 x1 (fun b => x2 (ix1 b)) := by
  funext j
  obtain ⟨b, e, q, rfl⟩ : ∃ (b : Fin 128) (e : Fin 256) (q : Fin 64), j = ix3 b e q := ⟨j 0, j 1, j 2, eq_ix3 j⟩
  rw [val_main_v10_apply, TS_apply]
  unfold tsAt
  refine Finset.sum_congr rfl fun s _ => ?_
  have el : lidx_main_v10 (ix3 b e q) s = ix3 b s e :=
    funext fun a => Fin.ext (by match a with | ⟨0, _⟩ => rfl | ⟨1, _⟩ => rfl | ⟨2, _⟩ => rfl)
  have er : ridx_main_v10 (ix3 b e q) s = ix3 b s q :=
    funext fun a => Fin.ext (by match a with | ⟨0, _⟩ => rfl | ⟨1, _⟩ => rfl | ⟨2, _⟩ => rfl)
  rw [el, er, val_main_v9_apply, mask_apply]
  show x0 (ix3 b s e) * keep (x2 (ix1 b)) s * x1 (ix3 b s q) = x0 (ix3 b s e) * (x1 (ix3 b s q) * keep (x2 (ix1 b)) s)
  rw [mul_assoc, mul_comm (keep (x2 (ix1 b)) s)]

/-- THE REFERENCE'S RESULT is the whole program's function of the arguments. -/
theorem result_eq (x0 : (⟨S128x1024x256, .f32⟩ : BufTy).Contents (Elt Ideal)) (x1 : (⟨S128x1024x64, .f32⟩ : BufTy).Contents (Elt Ideal))
    (x2 : (⟨S128, .i32⟩ : BufTy).Contents (Elt Ideal)) (x3 : (⟨S1024x16384, .f32⟩ : BufTy).Contents (Elt Ideal))
    (x4 : (⟨S1024, .f32⟩ : BufTy).Contents (Elt Ideal)) :
    val_main_v16 (F := Ideal) x0 x1 x2 x3 x4 = result shapeCasts_S128x256x64_S128x16384 x0 x1 x2 x3 x4 := by
  funext i
  obtain ⟨p, q, rfl⟩ : ∃ (p : Fin 128) (q : Fin 1024), i = ix2 p q := ⟨i 0, i 1, eq_ix2 i⟩
  have hflat : val_main_v11 (F := Ideal) x0 x1 x2
      = shapeCast S128x16384 (TS x0 x1 (fun b => x2 (ix1 b))) shapeCasts_S128x256x64_S128x16384 := by
    unfold val_main_v11
    rw [tensors_eq]
  have hbias : val_main_v15 (F := Ideal) x4 (ix2 p q) = x4 (ix1 q) := by
    rw [val_main_v15_apply, val_main_v14_apply]
    exact congrArg x4 (funext fun a => Fin.ext (by match a with | ⟨0, _⟩ => rfl))
  have hsum : val_main_v13 (F := Ideal) x0 x1 x2 x3 (ix2 p q)
      = ∑ k : Fin 16384, shapeCast S128x16384 (TS x0 x1 (fun b => x2 (ix1 b))) shapeCasts_S128x256x64_S128x16384 (ix2 p k) * x3 (ix2 q k) := by
    rw [val_main_v13_apply, hflat]
    refine Finset.sum_congr rfl fun k _ => ?_
    have el : lidx_main_v13 (ix2 p q) k = ix2 p k :=
      funext fun a => Fin.ext (by match a with | ⟨0, _⟩ => rfl | ⟨1, _⟩ => rfl)
    have er : idx_main_v12 (ridx_main_v13 (ix2 p q) k) = ix2 q k :=
      funext fun a => Fin.ext (by match a with | ⟨0, _⟩ => rfl | ⟨1, _⟩ => rfl)
    rw [el, val_main_v12_apply, er]
  rw [val_main_v16_apply, hsum, hbias]
  rfl

end Cert.ReferenceIdeal.RefValue

end
-- ==== Proof.lean ====
/-
  The certificate of the masked tensor-product binding kernel against its reference.

  Both programs take fillers `[128, 1024, 256]`, roles `[128, 1024, 64]`, sequence lengths `[128]`, weights
  `[1024, 16384]` and a bias `[1024]`. For every batch row they sum, over the sequence positions before the row's
  length, the outer product filler ⊗ role, flatten the 256 × 64 sum to 16384 entries, multiply by the transposed
  weights and add the bias. The kernel program does it in two pipelined kernels (16 batch rows per grid point, then
  256 output columns per grid point) and masks the roles; the reference masks the fillers. On the extended reals
  both are one function of the arguments, `Cert.Bind.result` (Proof/Spec.lean):
    * the kernel program's run, with the result at that function (Proof/KRun.lean, over what each grid point writes
      back — Proof/Pay0.lean, Proof/Pay1.lean — and the blocks' cover of each output array — Proof/Blocks0.lean,
      Proof/Blocks1.lean);
    * the reference's run read one operation at a time, and its result at the same function (Proof/RefValue.lean);
      the one law used is commutativity and associativity of the product, so the inputs' finiteness is never opened.
  The idealization rewrote no operation, so that conjunct is trivial.
-/
import proofs.«157740_j3367254360395_2_alg».proof.Defs
import proofs.«157740_j3367254360395_2_alg».proof.Proof.Gen.Kernel
import proofs.«157740_j3367254360395_2_alg».proof.Proof.Gen.Kernel.Skeleton
import proofs.«157740_j3367254360395_2_alg».proof.Proof.Gen.Kernel.Launch
import proofs.«157740_j3367254360395_2_alg».proof.Proof.Gen.Kernel.Points
import proofs.«157740_j3367254360395_2_alg».proof.Proof.Gen.Kernel.Frame
import proofs.«157740_j3367254360395_2_alg».proof.Proof.Gen.KernelIdeal
import proofs.«157740_j3367254360395_2_alg».proof.Proof.Gen.KernelIdeal.Skeleton
import proofs.«157740_j3367254360395_2_alg».proof.Proof.Gen.KernelIdeal.Launch
import proofs.«157740_j3367254360395_2_alg».proof.Proof.Gen.KernelIdeal.Points
import proofs.«157740_j3367254360395_2_alg».proof.Proof.Gen.KernelIdeal.Frame
import proofs.«157740_j3367254360395_2_alg».proof.Proof.Gen.ReferenceIdeal
import proofs.«157740_j3367254360395_2_alg».proof.Proof.Gen.Pre_finite_inputs
import proofs.«157740_j3367254360395_2_alg».proof.Proof.Gen.ReferenceIdeal.Run
import proofs.«157740_j3367254360395_2_alg».proof.Proof.Gen.ReferenceIdeal.Read
import proofs.«157740_j3367254360395_2_alg».proof.Proof.KRun
import proofs.«157740_j3367254360395_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the result at the one function
    `Cert.Bind.result` of the arguments: the kernel program by its run, the reference by its run, its composed term
    read as its last stage and that stage proved equal to the function. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
